-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x16 : Shape := ⟨3, ![64, 16384, 16]⟩
abbrev S_ : Shape := ⟨0, ![]⟩

class Facts : Prop where
  bcast_S_S64x16384x16 : S_.BroadcastsInDim S64x16384x16 (![] : Fin 0 → Fin S64x16384x16.rank)
  reducesTo_S64x16384x16_S_d0_1_2 : S64x16384x16.ReducesTo [0, 1, 2] S_
  h_S_ : 0 < S_.numel

variable [Facts]

def fn {F : FTy → Type} [FloatOps F] (main_arg0 : FVec F S64x16384x16 .f32) (main_arg1 : FVec F S64x16384x16 .f32) : IVec S_ 1 :=
  let main_v0 : FVec F S64x16384x16 .f32 := Host.absf main_arg0
  let main_cst : FVec F S_ .f32 := constant S_ .f32 0x7F800000#32
  let main_v1 : FVec F S64x16384x16 .f32 := broadcastInDim S64x16384x16 ![] bcast_S_S64x16384x16 main_cst
  let main_v2 : IVec S64x16384x16 1 := cmpf .olt main_v0 main_v1
  let main_c : IVec S_ 1 := constantI S_ 1 1#1
  let main_v3 : IVec S_ 1 := (fun x v => Host.reduce IntOp.andi x v reducesTo_S64x16384x16_S_d0_1_2 h_S_) main_v2 main_c
  let main_v4 : FVec F S64x16384x16 .f32 := Host.absf main_arg1
  let main_cst_0 : FVec F S_ .f32 := constant S_ .f32 0x7F800000#32
  let main_v5 : FVec F S64x16384x16 .f32 := broadcastInDim S64x16384x16 ![] bcast_S_S64x16384x16 main_cst_0
  let main_v6 : IVec S64x16384x16 1 := cmpf .olt main_v4 main_v5
  let main_c_1 : IVec S_ 1 := constantI S_ 1 1#1
  let main_v7 : IVec S_ 1 := (fun x v => Host.reduce IntOp.andi x v reducesTo_S64x16384x16_S_d0_1_2 h_S_) main_v6 main_c_1
  let main_v8 : IVec S_ 1 := andi main_v3 main_v7
  main_v8
-- ==== Kernel.lean ====
abbrev S64x16384x16 : Shape := ⟨3, ![64, 16384, 16]⟩
abbrev S64x1x1 : Shape := ⟨3, ![64, 1, 1]⟩
abbrev S1x4096x16 : Shape := ⟨3, ![1, 4096, 16]⟩
abbrev S1x1x1 : Shape := ⟨3, ![1, 1, 1]⟩
abbrev S4096x16 : Shape := ⟨2, ![4096, 16]⟩
abbrev S4096x1 : Shape := ⟨2, ![4096, 1]⟩
abbrev S4096 : Shape := ⟨1, ![4096]⟩
abbrev S1 : Shape := ⟨1, ![1]⟩
abbrev S1x1 : Shape := ⟨2, ![1, 1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S64x16384x16, .f32⟩
  | .hbm, ⟨1, _⟩ => ⟨S64x16384x16, .f32⟩
  | .hbm, ⟨2, _⟩ => ⟨S64x1x1, .f32⟩
  | .hbm, ⟨3, _⟩ => ⟨S_, .f32⟩
  | .hbm, ⟨4, _⟩ => ⟨S_, .f32⟩
  | .local _ .vmem, ⟨0, _⟩ => ⟨S1x4096x16, .f32⟩
  | .local _ .vmem, ⟨1, _⟩ => ⟨S1x4096x16, .f32⟩
  | .local _ .vmem, ⟨2, _⟩ => ⟨S1x4096x16, .f32⟩
  | .local _ .vmem, ⟨3, _⟩ => ⟨S1x4096x16, .f32⟩
  | .local _ .vmem, ⟨4, _⟩ => ⟨S1x1x1, .f32⟩
  | .local _ .vmem, ⟨5, _⟩ => ⟨S1x1x1, .f32⟩
  | _, _ => ⟨S64x16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  slices_S4096x16_o0_0_S4096x1 : S4096x16.Slices ![0, 0] S4096x1
  reduces_S4096x16_S4096 : S4096x16.Reduces [1] S4096
  shapeCasts_S4096_S4096x1 : S4096.ShapeCasts S4096x1
  reduces_S4096x1_S1 : S4096x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S64x1x1_S_d0_1_2 : S64x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x16.size a ≤ S64x16384x16.size a
  hwx0_0 : ∀ i : grid0.Coords, EltTy.bits .f32 = 32 ∨ (Rect.block (s := S64x16384x16) S1x4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x16.size a ≤ S64x16384x16.size a
  hwx0_1 : ∀ i : grid0.Coords, EltTy.bits .f32 = 32 ∨ (Rect.block (s := S64x16384x16) S1x4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S64x1x1.size a
  hwx0_2 : ∀ i : grid0.Coords, EltTy.bits .f32 = 32 ∨ (Rect.block (s := S64x1x1) S1x1x1.size (cc0_transform_2 i) (hinb0_2 i)).WholeWords (EltTy.packing .f32)

variable [Facts₀]

abbrev win0_0 : Pipeline.Window sig grid0 :=
  Pipeline.Window.ofSpec (Memref.whole main_arg0) S1x4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x16384x16 : Shape := ⟨3, ![64, 16384, 16]⟩
abbrev S64x16384x1 : Shape := ⟨3, ![64, 16384, 1]⟩
abbrev S64x16384 : Shape := ⟨2, ![64, 16384]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S64x16384x16, .f32⟩
  | .hbm, ⟨1, _⟩ => ⟨S64x16384x16, .f32⟩
  | .hbm, ⟨2, _⟩ => ⟨S64x16384x1, .f32⟩
  | .hbm, ⟨3, _⟩ => ⟨S64x16384, .f32⟩
  | .hbm, ⟨4, _⟩ => ⟨S_, .f32⟩
  | .hbm, ⟨5, _⟩ => ⟨S64x16384, .f32⟩
  | .hbm, ⟨6, _⟩ => ⟨S64x16384, .i1⟩
  | .hbm, ⟨7, _⟩ => ⟨S64x16384x16, .f32⟩
  | .hbm, ⟨8, _⟩ => ⟨S64x16384x16, .f32⟩
  | .hbm, ⟨9, _⟩ => ⟨S_, .f32⟩
  | .hbm, ⟨10, _⟩ => ⟨S64x16384, .f32⟩
  | .hbm, ⟨11, _⟩ => ⟨S_, .f32⟩
  | .hbm, ⟨12, _⟩ => ⟨S_, .f32⟩
  | .hbm, ⟨13, _⟩ => ⟨S64x16384, .f32⟩
  | .hbm, ⟨14, _⟩ => ⟨S64x16384, .f32⟩
  | .hbm, ⟨15, _⟩ => ⟨S_, .f32⟩
  | .hbm, ⟨16, _⟩ => ⟨S_, .f32⟩
  | .hbm, ⟨17, _⟩ => ⟨S64x16384x1, .f32⟩
  | .hbm, ⟨18, _⟩ => ⟨S64x16384, .f32⟩
  | .hbm, ⟨19, _⟩ => ⟨S64x16384, .f32⟩
  | .hbm, ⟨20, _⟩ => ⟨S_, .f32⟩
  | .hbm, ⟨21, _⟩ => ⟨S_, .f32⟩
  | .hbm, ⟨22, _⟩ => ⟨S64x16384, .f32⟩
  | .hbm, ⟨23, _⟩ => ⟨S64x16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S64x16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  slices_S64x16384x16_S64x16384x1_0_0_0 : S64x16384x16.Slices ![0, 0, 0] S64x16384x1
  shapeCasts_S64x16384x1_S64x16384 : S64x16384x1.ShapeCasts S64x16384
  bcast_S_S64x16384 : S_.BroadcastsInDim S64x16384 (![] : Fin 0 → Fin S64x16384.rank)
  reducesTo_S64x16384x16_S64x16384_d2 : S64x16384x16.ReducesTo [2] S64x16384
  h_S_ : 0 < S_.numel
  reducesTo_S64x16384_S_d0_1 : S64x16384.ReducesTo [0, 1] S_

variable [Facts₀]

class Facts : Prop extends Facts₀ where

variable [Facts]
-- ==== Proof.CaseValues.lean ====
/-
  What one run of the kernel body leaves in the output's one-entry block, in each of its two control
  cases, as a function of the two input blocks.

  The body first tests whether it is at the first tile of a batch. If so it stores the zero entry,
  and the later read of the block sees that zero; otherwise the block still holds what the tile
  before left. In both cases the last store writes the block total of this tile added to what was
  read, and that store covers the whole block, so it alone decides the contents:
    first tile : the block ends at  zero + (this tile's total);
    later tile : the block ends at  (what it held) + (this tile's total).
  Stated at any float instance: nothing here depends on what the arithmetic means.
-/
import proofs.«146066_j71562745086449_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.MaskedLoss

open Cert.KernelIdeal Cert.KernelIdeal.Gen

variable {F : FTy → Type} [FloatOps F]

/-- The all-zero offsets of a rank-3 rectangle anchored at the origin. -/
theorem origin3 : (![0, 0, 0] : Fin 3 → Nat) = fun _ => 0 := funext fun a => by fin_cases a <;> rfl

/-- A later tile of a batch: the block, holding `acc`, ends at `acc` plus this tile's total. -/
theorem later_tile (c : Dev nD) (i : grid0.Coords) (a2 : Memref sig .tc .vmem S1x4096x16 .f32) (h2 : a2.IsWhole)
    (a3 : Memref sig .tc .vmem S1x4096x16 .f32) (h3 : a3.IsWhole) (a4 : Memref sig .tc .vmem S1x1x1 .f32) (h4 : a4.IsWhole)
    (hc : ¬cond0_0 i) (x0 x1 : Vec F S1x4096x16 .f32) (acc : Vec F S1x1x1 .f32) :
    out0_B_2 c i a2 h2 a3 h3 a4 h4 hc x0 x1 acc = k0_pay2 x0 x1 acc := by
  unfold out0_B_2
  rw [View.read_writes_eq_canon _ _ _ (cover0_B_2 c i a2 h2 a3 h3 a4 h4 hc x0 x1 acc)]
  unfold kernelRun0_B
  dsimp only
  rw [View.canon_unit_zero (S := S1x1x1) origin3]
  simp only [View.readAt_eq_ld, h2.read_unread, h3.read_unread, h4.read_unread,
    View.ld_unit_zero (S := S1x4096x16) origin3, View.ld_unit_zero (S := S1x1x1) origin3]

/-- The first tile of a batch: the block ends at the zero entry plus this tile's total. -/
theorem first_tile (c : Dev nD) (i : grid0.Coords) (a2 : Memref sig .tc .vmem S1x4096x16 .f32) (h2 : a2.IsWhole)
    (a3 : Memref sig .tc .vmem S1x4096x16 .f32) (h3 : a3.IsWhole) (a4 : Memref sig .tc .vmem S1x1x1 .f32) (h4 : a4.IsWhole)
    (hc : cond0_0 i) (x0 x1 : Vec F S1x4096x16 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) origin3, View.readCov_unit_zero (S := S1x1x1) _ origin3]
  simp only [View.readAt_eq_ld, h2.read_unread, h3.read_unread, View.ld_unit_zero (S := S1x4096x16) origin3]

end Cert.KernelIdeal.MaskedLoss

end
-- ==== Proof.TileTotal.lean ====
/-
  The body's arithmetic read at an index, at the extended reals.

  A tile is a block of 4096 cells of 16 channels each, of `x` and of `y`. For one cell (one row `r`
  of the tile) the body forms
      [y_r0 > 1/2] ? (sum over the 16 channels c of (y_rc - x_rc)^2) : 0
    + ([y_r0 > 1/2] ? 0 : x_r0 ^ 2) * w,
  `w` the weight the program spells as a float word (the same word as in the reference: it is never
  evaluated). The body then sums the 4096 rows and adds the total to the one-entry block it was handed.
  So the block the last store writes is, at its one index,  (what the block held) + (sum of the row terms).

  The pointwise operations read through an index by definition. Each operation that moves data is read
  by one small lemma over a variable: dropping the leading unit axis of a block, taking the first
  column, the sum over the 16 lanes, laying a vector out as a column, the sum over the rows, and the
  two casts that lay a single value out as a one-entry block.
-/
import proofs.«146066_j71562745086449_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.MaskedLoss

open Cert.KernelIdeal Cert.KernelIdeal.Gen

/-- The term of one row `r` of a tile: the squared distance over the channels where channel 0 of `y`
    exceeds one half, otherwise the weighted square of channel 0 of `x`. -/
def rowTerm (x0 x1 : (⟨3, ![1, 4096, 16]⟩ : Shape).Idx → EReal) (r : Fin 4096) : EReal :=
  Scalar.select (FloatOps.cmpf (F := Ideal) (φ := .f32) .ogt (x1 (ix3 (0 : Fin 1) r (0 : Fin 16))) (Ideal.ofBits .f32 0x3F000000#32))
      (∑ c : Fin 16, (x1 (ix3 (0 : Fin 1) r c) - x0 (ix3 (0 : Fin 1) r c)) * (x1 (ix3 (0 : Fin 1) r c) - x0 (ix3 (0 : Fin 1) r c)))
      (Ideal.ofBits .f32 0x00000000#32)
    + Scalar.select (FloatOps.cmpf (F := Ideal) (φ := .f32) .ogt (x1 (ix3 (0 : Fin 1) r (0 : Fin 16))) (Ideal.ofBits .f32 0x3F000000#32))
        (Ideal.ofBits .f32 0x00000000#32) (x0 (ix3 (0 : Fin 1) r (0 : Fin 16)) * x0 (ix3 (0 : Fin 1) r (0 : Fin 16)))
      * Ideal.ofBits .f32 0x3DCCCCCD#32

/-- A block with its leading unit axis dropped reads `(r, c)` at `(0, r, c)`. -/
theorem drop_unit (x : Vec Ideal S1x4096x16 .f32) (r : Fin 4096) (c : Fin 16) :
    shapeCast S4096x16 x shapeCasts_S1x4096x16_S4096x16 (ix2 r c) = x (ix3 (0 : Fin 1) r c) :=
  shapeCast_1ab_ab_apply x _ r c

/-- The first column of a matrix reads `(r, 0)` at `(r, 0)`. -/
theorem first_column (v : FVec Ideal S4096x16 .f32) (r : Fin 4096) :
    extractStridedSlice S4096x1 ![0, 0] v slices_S4096x16_o0_0_S4096x1 (ix2 r (0 : Fin 1)) = v (ix2 r (0 : Fin 16)) :=
  slice2_axis1_apply 0 v _ r (0 : Fin 1) (0 : Fin 16) rfl

/-- The sum over the 16 lanes of row `r`. -/
theorem lane_sum (v : FVec Ideal S4096x16 .f32) (r : Fin 4096) :
    multiReduction .add [1] S4096 v 0x00000000#32 reduces_S4096x16_S4096 (.inl rfl) rfl (ix1 r) = ∑ c : Fin 16, v (ix2 r c) :=
  (Ideal.multiReduction_add_single v 0x00000000#32 reduces_S4096x16_S4096 (.inl rfl) rfl (ix1 r)).trans
    (Finset.sum_congr rfl fun c _ => congrArg v (funext fun a => Fin.ext (by match a with | ⟨0, _⟩ => rfl | ⟨1, _⟩ => rfl)))

/-- A vector laid out as a column reads `(r, 0)` at `r`. -/
theorem as_column (u : FVec Ideal S4096 .f32) (r : Fin 4096) :
    shapeCast S4096x1 u shapeCasts_S4096_S4096x1 (ix2 r (0 : Fin 1)) = u (ix1 r) :=
  shapeCast_apply u shapeCasts_S4096_S4096x1 _ _ (by
    rw [Shape.rowMajor_val_one, Shape.rowMajor_val_two]
    show r.val = r.val * 1 + 0
    omega)

/-- The sum over the 4096 rows of a column. -/
theorem row_sum (v : FVec Ideal S4096x1 .f32) :
    multiReduction .add [0] S1 v 0x00000000#32 reduces_S4096x1_S1 (.inl rfl) rfl (ix1 (0 : Fin 1)) = ∑ r : Fin 4096, v (ix2 r (0 : Fin 1)) :=
  (Ideal.multiReduction_add_single v 0x00000000#32 reduces_S4096x1_S1 (.inl rfl) rfl (ix1 (0 : Fin 1))).trans
    (Finset.sum_congr rfl fun r _ => congrArg v (funext fun a => Fin.ext (by match a with | ⟨0, _⟩ => rfl | ⟨1, _⟩ => rfl)))

/-- A single value laid out as a one-entry block of rank 3 reads its one index at that value. -/
theorem as_entry (u : FVec Ideal S1 .f32) (i : S1x1x1.Idx) :
    shapeCast S1x1x1 (shapeCast S1x1 u shapeCasts_S1_S1x1) shapeCasts_S1x1_S1x1x1 i = u (ix1 (0 : Fin 1)) := by
  have h0 : (i 0).val = 0 := by have h : (i 0).val < 1 := (i 0).isLt; omega
  have h1 : (i 1).val = 0 := by have h : (i 1).val < 1 := (i 1).isLt; omega
  have h2 : (i 2).val = 0 := by have h : (i 2).val < 1 := (i 2).isLt; omega
  refine (shapeCast_apply _ shapeCasts_S1x1_S1x1x1 i (ix2 (0 : Fin 1) (0 : Fin 1)) (by
    rw [Shape.rowMajor_val_two, Shape.rowMajor_val_three]
    show 0 * 1 + 0 = ((i 0).val * 1 + (i 1).val) * 1 + (i 2).val
    omega)).trans ?_
  exact shapeCast_apply u shapeCasts_S1_S1x1 _ _ (by
    rw [Shape.rowMajor_val_one, Shape.rowMajor_val_two]
    show 0 = 0 * 1 + 0
    omega)

/-- The column of row terms the body sums: the program's own operations up to the row sum. -/
def rowVec (x0 x1 : Vec Ideal S1x4096x16 .f32) : FVec Ideal S4096x1 .f32 :=
  have v4 : FVec Ideal S4096x16 .f32 := shapeCast S4096x16 x0 shapeCasts_S1x4096x16_S4096x16
  have v6 : FVec Ideal S4096x16 .f32 := shapeCast S4096x16 x1 shapeCasts_S1x4096x16_S4096x16
  have v7 : FVec Ideal S4096x1 .f32 := extractStridedSlice S4096x1 ![0, 0] v6 slices_S4096x16_o0_0_S4096x1
  have cst : Ideal .f32 := Scalar.ofBits .f32 0x3F000000#32
  have v8 : FVec Ideal S4096x1 .f32 := broadcast S4096x1 cst
  have v9 : IVec S4096x1 1 := cmpf .ogt v7 v8
  have v10 : FVec Ideal S4096x16 .f32 := subf v6 v4
  have v11 : FVec Ideal S4096x16 .f32 := mulf v10 v10
  have v12 : FVec Ideal S4096 .f32 := multiReduction .add [1] S4096 v11 0x00000000#32 reduces_S4096x16_S4096 (.inl rfl) rfl
  have v13 : FVec Ideal S4096x1 .f32 := shapeCast S4096x1 v12 shapeCasts_S4096_S4096x1
  have cst_7 : Ideal .f32 := Scalar.ofBits .f32 0x00000000#32
  have v14 : FVec Ideal S4096x1 .f32 := broadcast S4096x1 cst_7
  have v15 : FVec Ideal S4096x1 .f32 := select v9 v13 v14
  have v16 : FVec Ideal S4096x1 .f32 := extractStridedSlice S4096x1 ![0, 0] v4 slices_S4096x16_o0_0_S4096x1
  have v17 : FVec Ideal S4096x1 .f32 := mulf v16 v16
  have cst_8 : Ideal .f32 := Scalar.ofBits .f32 0x00000000#32
  have v18 : FVec Ideal S4096x1 .f32 := broadcast S4096x1 cst_8
  have v19 : FVec Ideal S4096x1 .f32 := select v9 v18 v17
  have cst_9 : Ideal .f32 := Scalar.ofBits .f32 0x3DCCCCCD#32
  have v20 : FVec Ideal S4096x1 .f32 := broadcast S4096x1 cst_9
  have v21 : FVec Ideal S4096x1 .f32 := mulf v19 v20
  have v22 : FVec Ideal S4096x1 .f32 := addf v15 v21
  v22

/-- The last store's payload is the handed block plus the row sum of that column, laid out as a block. -/
theorem pay2_eq (x0 x1 : Vec Ideal S1x4096x16 .f32) (acc : Vec Ideal S1x1x1 .f32) :
    k0_pay2 x0 x1 acc
      = addf (shapeCast S1x1x1 acc shapeCasts_S1x1x1_S1x1x1)
          (shapeCast S1x1x1
            (shapeCast S1x1 (multiReduction .add [0] S1 (rowVec x0 x1) 0x00000000#32 reduces_S4096x1_S1 (.inl rfl) rfl) shapeCasts_S1_S1x1)
            shapeCasts_S1x1_S1x1x1) := rfl

/-- The squared difference of the two blocks at row `r`, channel `c`. -/
theorem sq_diff (x0 x1 : Vec Ideal S1x4096x16 .f32) (r : Fin 4096) (c : Fin 16) :
    (mulf (subf (shapeCast S4096x16 x1 shapeCasts_S1x4096x16_S4096x16 : FVec Ideal S4096x16 .f32)
                (shapeCast S4096x16 x0 shapeCasts_S1x4096x16_S4096x16 : FVec Ideal S4096x16 .f32))
          (subf (shapeCast S4096x16 x1 shapeCasts_S1x4096x16_S4096x16 : FVec Ideal S4096x16 .f32)
                (shapeCast S4096x16 x0 shapeCasts_S1x4096x16_S4096x16 : FVec Ideal S4096x16 .f32))) (ix2 r c)
      = (x1 (ix3 (0 : Fin 1) r c) - x0 (ix3 (0 : Fin 1) r c)) * (x1 (ix3 (0 : Fin 1) r c) - x0 (ix3 (0 : Fin 1) r c)) := by
  show (shapeCast S4096x16 x1 shapeCasts_S1x4096x16_S4096x16 (ix2 r c) - shapeCast S4096x16 x0 shapeCasts_S1x4096x16_S4096x16 (ix2 r c))
      * (shapeCast S4096x16 x1 shapeCasts_S1x4096x16_S4096x16 (ix2 r c) - shapeCast S4096x16 x0 shapeCasts_S1x4096x16_S4096x16 (ix2 r c)) = _
  rw [drop_unit, drop_unit]

/-- Row `r` of that column is the row term. -/
theorem rowVec_apply (x0 x1 : Vec Ideal S1x4096x16 .f32) (r : Fin 4096) :
    rowVec x0 x1 (ix2 r (0 : Fin 1)) = rowTerm x0 x1 r := by
  unfold rowVec rowTerm
  simp only [addf_apply, mulf_apply, select_apply, cmpf_apply, broadcast_apply]
  rw [first_column, first_column, drop_unit, drop_unit, as_column, lane_sum,
    Finset.sum_congr rfl fun c _ => sq_diff x0 x1 r c]
  rfl

/-- The zero entry the first tile stores. -/
theorem pay1_apply (i : S1x1x1.Idx) : k0_pay1 (F := Ideal) i = 0 := Ideal.ofBits_zero_f32

/-- THE TILE TOTAL: the block the last store writes is, at its one index, what the block held plus the
    sum of the 4096 row terms of the tile. -/
theorem pay2_apply (x0 x1 : Vec Ideal S1x4096x16 .f32) (acc : Vec Ideal S1x1x1 .f32) (i : S1x1x1.Idx) :
    k0_pay2 x0 x1 acc i = acc i + ∑ r : Fin 4096, rowTerm x0 x1 r := by
  rw [pay2_eq]
  show shapeCast S1x1x1 acc shapeCasts_S1x1x1_S1x1x1 i + _ = _
  rw [shapeCast_self, as_entry, row_sum]
  exact congrArg (acc i + ·) (Finset.sum_congr rfl fun r _ => rowVec_apply x0 x1 r)

end Cert.KernelIdeal.MaskedLoss

end
-- ==== Proof.LibNonnegSums.lean ====
/-
  Sums on the extended reals, over abstract finite index types: what joins a total in which every
  term carries its own factor to a total multiplied once.

  On the extended reals multiplication does not distribute over addition in general (an infinite
  factor against terms of both signs), but it does over NONNEGATIVE terms, whatever the factor:
  `(a + b) * c = a * c + b * c` for `0 ≤ a`, `0 ≤ b` and any `c`. A product `x * x` is nonnegative
  for every extended real `x`, infinite ones included, so a total of squares, or of squares and
  zeros, may have a common factor moved across it with no finiteness assumption at all.
-/
import Mathlib.Data.EReal.Operations
import Mathlib.Algebra.BigOperators.Fin
import Mathlib.Algebra.BigOperators.Ring.Finset
import Mathlib.Algebra.Order.BigOperators.Group.Finset
import Mathlib.Logic.Equiv.Fin.Basic

namespace Cert.NonnegSums

open Finset

/-- A square is nonnegative on the extended reals: both factors lie on the same side of zero. -/
theorem zero_le_mul_self (x : EReal) : 0 ≤ x * x :=
  EReal.mul_nonneg_iff.2 ((le_total 0 x).imp (fun h => ⟨h, h⟩) (fun h => ⟨h, h⟩))

/-- A common right factor moves across a finite sum of nonnegative terms. -/
theorem sum_mul_of_nonneg {ι : Type*} (s : Finset ι) (f : ι → EReal) (c : EReal)
    (hf : ∀ i ∈ s, 0 ≤ f i) : (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- A total of `A i + B i * c`, the factor inside every term, is the total
    of the `A i` plus `c` times the total of the `B i`, when every `B i` is nonnegative. -/
theorem sum_add_mul_eq {ι : Type*} [Fintype ι] (A B : ι → EReal) (c : EReal) (hB : ∀ i, 0 ≤ B i) :
    ∑ i, (A i + B i * c) = (∑ i, A i) + c * ∑ i, B i := by
  rw [Finset.sum_add_distrib, EReal.mul_comm c, sum_mul_of_nonneg _ _ _ fun i _ => hB i]

/-- A range of `a * b` indices summed tile by tile, `a` tiles of `b` consecutive indices, is the
    sum over the whole range (any commutative monoid: only the order of the terms changes). -/
theorem sum_tiles {M : Type*} [AddCommMonoid M] (a b : ℕ) (f : Fin (a * b) → M) :
    ∑ j : Fin a, ∑ r : Fin b, f (finProdFinEquiv (j, r)) = ∑ n : Fin (a * b), f n := by
  rw [← Fintype.sum_prod_type', Equiv.sum_comp finProdFinEquiv f]

/-- The index of place `r` of tile `j` is `r + b * j`. -/
theorem tile_index_val (a b : ℕ) (j : Fin a) (r : Fin b) :
    (finProdFinEquiv (j, r) : Fin (a * b)).val = r.val + b * j.val := rfl

end Cert.NonnegSums
-- ==== Proof.LossSpec.lean ====
/-
  The function both programs compute, index by index, over literal shapes.

  `x` and `y` are arrays of 64 batches of 16384 cells of 16 channels. A cell `(b, n)` is PICKED when
  channel 0 of `y` there exceeds one half. A picked cell contributes the squared distance between `y` and
  `x` over its 16 channels; an unpicked cell contributes the square of channel 0 of `x`, weighted by `w`.
  The loss is
      (sum over all cells of the picked part)  +  w * (sum over all cells of the unpicked part).
  The reference forms exactly these two totals and multiplies the second by `w` once. The kernel adds,
  cell by cell, picked part + unpicked part * w, sums 4096 cells per tile, four tiles per batch, and the
  64 batch totals on the host. The two agree because every unpicked part is a square or zero, hence
  nonnegative, and a factor moves across a sum of nonnegative extended reals whatever it is; the rest is
  reordering a finite sum. The weight `w` and the threshold stay the float words the programs spell.
-/
import Idealize.ShloMosaic.PureOps.Ideal
import Idealize.ShloMosaic.PureOps.Ideal.Laws
import Idealize.ShloMosaic.Lib.ValueIdx
import proofs.«146066_j71562745086449_1_alg».proof.Proof.LibNonnegSums

noncomputable section

open Idealize.ShloMosaic Idealize.ShloMosaic.ValueIdx

namespace Cert.MaskedLoss

open Cert.NonnegSums

/-- An array of 64 batches of 16384 cells of 16 channels, of extended reals. -/
abbrev Arr : Type := (⟨3, ![64, 16384, 16]⟩ : Shape).Idx → EReal

/-- The weight of the unpicked part, as the programs spell it. -/
def weight : EReal := Ideal.ofBits .f32 0x3DCCCCCD#32

/-- Whether cell `(b, n)` is picked: channel 0 of `y` exceeds one half. -/
def picked (Y : Arr) (b : Fin 64) (n : Fin 16384) : BitVec 1 :=
  FloatOps.cmpf (F := Ideal) (φ := .f32) .ogt (Y (ix3 b n (0 : Fin 16))) (Ideal.ofBits .f32 0x3F000000#32)

/-- The picked part of a cell: the squared distance over its channels if it is picked, else zero. -/
def pickedPart (X Y : Arr) (b : Fin 64) (n : Fin 16384) : EReal :=
  Scalar.select (picked Y b n) (∑ c : Fin 16, (Y (ix3 b n c) - X (ix3 b n c)) * (Y (ix3 b n c) - X (ix3 b n c)))
    (Ideal.ofBits .f32 0x00000000#32)

/-- The unpicked part of a cell: zero if it is picked, else the square of channel 0 of `x`. -/
def unpickedPart (X Y : Arr) (b : Fin 64) (n : Fin 16384) : EReal :=
  Scalar.select (picked Y b n) (Ideal.ofBits .f32 0x00000000#32) (X (ix3 b n (0 : Fin 16)) * X (ix3 b n (0 : Fin 16)))

/-- What the kernel adds for one cell: the weight inside the term. -/
def cellTerm (X Y : Arr) (b : Fin 64) (n : Fin 16384) : EReal :=
  pickedPart X Y b n + unpickedPart X Y b n * weight

/-- THE LOSS: the total of the picked parts plus the weight times the total of the unpicked parts. -/
def loss (X Y : Arr) : EReal :=
  (∑ b : Fin 64, ∑ n : Fin 16384, pickedPart X Y b n) + weight * ∑ b : Fin 64, ∑ n : Fin 16384, unpickedPart X Y b n

/-- The unpicked part is nonnegative at every cell, for any extended reals: it is zero or a square. -/
theorem unpickedPart_nonneg (X Y : Arr) (b : Fin 64) (n : Fin 16384) : 0 ≤ unpickedPart X Y b n := by
  unfold unpickedPart Scalar.select
  split
  · rw [Ideal.ofBits_zero_f32]
  · exact zero_le_mul_self _

/-- Cell `r` of tile `j` of a batch: the tiles are runs of 4096 consecutive cells. -/
def tileCell (j : Fin 4) (r : Fin 4096) : Fin 16384 := ⟨r.val + 4096 * j.val, by omega⟩

/-- Four tiles of 4096 cells are the 16384 cells of a batch, each once. -/
theorem sum_tileCell {M : Type*} [AddCommMonoid M] (f : Fin 16384 → M) :
    ∑ j : Fin 4, ∑ r : Fin 4096, f (tileCell j r) = ∑ n : Fin 16384, f n :=
  sum_tiles 4 4096 f

/-- THE BRIDGE'S ALGEBRA: the cell terms summed tile by tile and batch by batch are the loss. -/
theorem sum_cellTerm_eq_loss (X Y : Arr) :
    ∑ b : Fin 64, ∑ j : Fin 4, ∑ r : Fin 4096, cellTerm X Y b (tileCell j r) = loss X Y := by
  have h1 : ∀ b : Fin 64, ∑ j : Fin 4, ∑ r : Fin 4096, cellTerm X Y b (tileCell j r) = ∑ n : Fin 16384, cellTerm X Y b n :=
    fun b => sum_tileCell (cellTerm X Y b)
  rw [Finset.sum_congr rfl fun b _ => h1 b, ← Fintype.sum_prod_type']
  unfold loss
  rw [← Fintype.sum_prod_type', ← Fintype.sum_prod_type']
  exact sum_add_mul_eq (fun p : Fin 64 × Fin 16384 => pickedPart X Y p.1 p.2) (fun p => unpickedPart X Y p.1 p.2) weight
    (fun p => unpickedPart_nonneg X Y p.1 p.2)

end Cert.MaskedLoss

end
-- ==== Proof.RunningTotal.lean ====
/-
  What the output's one-entry block holds when a batch's last tile has run: the batch total.

  The grid's 256 points run batch by batch, four tiles to a batch: point `t` is tile `t % 4` of batch
  `t / 4`. At the first tile of a batch the block is reset to zero and the tile's total added; at each
  later tile the tile's total is added to what the tile before left. So after the last tile of batch `q`
  (point `4q + 3`, the one point at which the block is written back) the block holds
      0 + (total of tile 0) + (total of tile 1) + (total of tile 2) + (total of tile 3).
  This is a fold along the run of points `4q … 4q + 3`, proved by induction on the offset in the run,
  never by enumerating the grid.

  The input block of `x` (of `y`) at point `t` is the part of the argument array at batch `t / 4`,
  cells `4096 (t % 4) … 4096 (t % 4) + 4095`, all 16 channels: an element of a block sits in the array,
  on each axis, at the block's index times the block's size plus its own coordinate. So a tile's total
  is the sum over its 4096 cells of the cell terms of the two argument arrays.
-/
import proofs.«146066_j71562745086449_1_alg».proof.Proof.CaseValues
import proofs.«146066_j71562745086449_1_alg».proof.Proof.TileTotal
import proofs.«146066_j71562745086449_1_alg».proof.Proof.LossSpec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.MaskedLoss

open Cert.KernelIdeal Cert.KernelIdeal.Gen Cert.MaskedLoss

variable (m : (ℓ : Loc nD τ sig) → Buf (Elt Ideal) ℓ)

/-- The argument arrays as the kernel's core `c` finds them. -/
abbrev argX (c : Dev nD) : Arr := m ((c : Thread nD τ).loc main_arg0)
abbrev argY (c : Dev nD) : Arr := m ((c : Thread nD τ).loc main_arg1)

/-! ## The input blocks, read off the argument arrays -/

theorem point_lt (t : Fin cfg0.N) : t.val < 256 := lt_of_lt_of_eq t.isLt N_0

/-- The batch and the tile of a grid point. -/
def batchOf (t : Fin cfg0.N) : Fin 64 := ⟨t.val / 4, by have := point_lt t; omega⟩
def tileOf (t : Fin cfg0.N) : Fin 4 := ⟨t.val % 4, Nat.mod_lt _ (by decide)⟩

/-- The printed index maps, decided over the grid: both inputs' blocks are at (batch, tile, 0), the
    output's block at (batch, 0, 0). -/
theorem index_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The block of `x` at point `t`, at row `r` and channel `ch`, is `x` at the point's batch, the tile's cell
    `r`, channel `ch`. -/
theorem block_x (c : Dev nD) (t : Fin cfg0.N) (r : Fin 4096) (ch : Fin 16) :
    (iblk m c 0 t : Vec Ideal S1x4096x16 .f32) (ix3 (0 : Fin 1) r ch) = argX m c (ix3 (batchOf t) (tileCell (tileOf t) r) ch) := by
  obtain ⟨e0, e1, e2, -⟩ := index_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val / 4; omega
  | ⟨1, _⟩ => show win0_0.index t (1 : Fin 3) * 4096 + 1 * r.val = r.val + 4096 * (t.val % 4); omega
  | ⟨2, _⟩ => show win0_0.index t (2 : Fin 3) * 16 + 1 * ch.val = ch.val; omega

/-- The same for the block of `y`. -/
theorem block_y (c : Dev nD) (t : Fin cfg0.N) (r : Fin 4096) (ch : Fin 16) :
    (iblk m c 1 t : Vec Ideal S1x4096x16 .f32) (ix3 (0 : Fin 1) r ch) = argY m c (ix3 (batchOf t) (tileCell (tileOf t) r) ch) := by
  obtain ⟨-, -, -, e0, e1, e2, -⟩ := index_facts t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 3) * 1 + 1 * 0 = t.val / 4; omega
  | ⟨1, _⟩ => show win0_1.index t (1 : Fin 3) * 4096 + 1 * r.val = r.val + 4096 * (t.val % 4); omega
  | ⟨2, _⟩ => show win0_1.index t (2 : Fin 3) * 16 + 1 * ch.val = ch.val; omega

/-- A row term of two blocks that read two arrays at cell `(b, n)` is that cell's term. -/
theorem rowTerm_eq_cellTerm (x0 x1 : (⟨3, ![1, 4096, 16]⟩ : Shape).Idx → EReal) (X Y : Arr) (r : Fin 4096) (b : Fin 64) (n : Fin 16384)
    (h0 : ∀ ch : Fin 16, x0 (ix3 (0 : Fin 1) r ch) = X (ix3 b n ch)) (h1 : ∀ ch : Fin 16, x1 (ix3 (0 : Fin 1) r ch) = Y (ix3 b n ch)) :
    rowTerm x0 x1 r = cellTerm X Y b n := by
  unfold rowTerm cellTerm pickedPart unpickedPart picked weight
  simp only [h0, h1]

/-! ## The tile totals and their fold -/

/-- The total of the tile at point `n`, as a function of every natural (zero past the grid, never used). -/
def tileAt (c : Dev nD) (n : ℕ) : EReal :=
  if h : n < cfg0.N then ∑ r : Fin 4096, rowTerm (iblk m c 0 ⟨n, h⟩) (iblk m c 1 ⟨n, h⟩) r else 0

theorem tileAt_of_lt (c : Dev nD) (n : ℕ) (h : n < cfg0.N) :
    tileAt m c n = ∑ r : Fin 4096, rowTerm (iblk m c 0 ⟨n, h⟩) (iblk m c 1 ⟨n, h⟩) r := dif_pos h

/-- A tile's total is the sum of the cell terms of its 4096 cells. -/
theorem tileAt_eq (c : Dev nD) (t : Fin cfg0.N) :
    tileAt m c t.val = ∑ r : Fin 4096, cellTerm (argX m c) (argY m c) (batchOf t) (tileCell (tileOf t) r) := by
  rw [tileAt_of_lt m c t.val t.isLt]
  exact Finset.sum_congr rfl fun r _ =>
    rowTerm_eq_cellTerm _ _ (argX m c) (argY m c) r (batchOf t) (tileCell (tileOf t) r)
      (fun ch => block_x m c t r ch) (fun ch => block_y m c t r ch)

/-- At the first tile of a batch the block ends at the reset value plus the tile's total. -/
theorem outs_first (c : Dev nD) (n : ℕ) (h : n < cfg0.N) (hn : n % 4 = 0) :
    outsAt0 m c n h = k0_pay2 (iblk m c 0 ⟨n, h⟩) (iblk m c 1 ⟨n, h⟩) (k0_pay1 (F := Ideal)) :=
  (outsAt0_A m c ⟨n, h⟩ hn).trans
    (first_tile c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      ((hcond0_0 ⟨n, h⟩).mpr hn) (iblk m c 0 ⟨n, h⟩) (iblk m c 1 ⟨n, h⟩))

/-- At a later tile it ends at what the tile before left plus the tile's total. -/
theorem outs_later (c : Dev nD) (n : ℕ) (h : n + 1 < cfg0.N) (hn : ¬(n + 1) % 4 = 0) :
    outsAt0 m c (n + 1) h
      = k0_pay2 (iblk m c 0 ⟨n + 1, h⟩) (iblk m c 1 ⟨n + 1, h⟩) (outsAt0 m c n (Nat.lt_of_succ_lt h)) :=
  (outsAt0_B m c ⟨n + 1, h⟩ hn).trans
    (later_tile c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hc => hn ((hcond0_0 ⟨n + 1, h⟩).mp hc))
      (iblk m c 0 ⟨n + 1, h⟩) (iblk m c 1 ⟨n + 1, h⟩) (outsAt0 m c n (Nat.lt_of_succ_lt h)))

/-- THE FOLD: after the last tile of batch `q` the block holds zero plus the four tile totals. -/
theorem outs_last (c : Dev nD) (q : ℕ) (h : 4 * q + 3 < cfg0.N) (i : S1x1x1.Idx) :
    outsAt0 m c (4 * q + 3) h i = 0 + ∑ s ∈ Finset.range 4, tileAt m c (4 * q + s) := by
  rw [Pipeline.eq_accAt (outsAt0 m c) 4
      (fun n h => k0_pay2 (iblk m c 0 ⟨n, h⟩) (iblk m c 1 ⟨n, h⟩) (k0_pay1 (F := Ideal)))
      (fun n h acc => k0_pay2 (iblk m c 0 ⟨n, h⟩) (iblk m c 1 ⟨n, h⟩) acc)
      (fun n h hn => outs_first m c n h hn) (fun n h hn => outs_later m c n h hn) q 3 (by decide) h]
  exact Pipeline.accAt_add_apply _ _ (fun _ => (0 : EReal)) (fun n _ => tileAt m c n) (4 * q) 3
    (fun hb j => (pay2_apply (iblk m c 0 ⟨4 * q, hb⟩) (iblk m c 1 ⟨4 * q, hb⟩) (k0_pay1 (F := Ideal)) j).trans
      (by rw [pay1_apply, tileAt_of_lt m c (4 * q) hb]))
    (fun n hn acc j _ _ => (pay2_apply (iblk m c 0 ⟨n, hn⟩) (iblk m c 1 ⟨n, hn⟩) acc j).trans
      (by rw [tileAt_of_lt m c n hn]))
    3 (le_refl 3) h i

/-- THE BATCH TOTAL: after the last tile of batch `q` the block holds zero plus the sum, over the four
    tiles and the 4096 cells of each, of the cell terms of the two argument arrays. -/
theorem outs_last_eq (c : Dev nD) (q : Fin 64) (h : 4 * q.val + 3 < cfg0.N) (i : S1x1x1.Idx) :
    outsAt0 m c (4 * q.val + 3) h i
      = 0 + ∑ j : Fin 4, ∑ r : Fin 4096, cellTerm (argX m c) (argY m c) q (tileCell j r) := by
  rw [outs_last m c q.val h i, Finset.sum_range]
  refine congrArg (0 + ·) (Finset.sum_congr rfl fun j _ => ?_)
  have hj : 4 * q.val + j.val < cfg0.N := by have := j.isLt; omega
  have e := tileAt_eq m c ⟨4 * q.val + j.val, hj⟩
  have hb : batchOf ⟨4 * q.val + j.val, hj⟩ = q := Fin.ext (by show (4 * q.val + j.val) / 4 = q.val; have := j.isLt; omega)
  have ht : tileOf ⟨4 * q.val + j.val, hj⟩ = j := Fin.ext (by show (4 * q.val + j.val) % 4 = j.val; have := j.isLt; omega)
  rw [hb, ht] at e
  exact e

end Cert.KernelIdeal.MaskedLoss

end
-- ==== Proof.KernelValue.lean ====
/-
  The idealized kernel's run, read: its one result is the host's sum of the 64 batch totals.

  The output array of the region has one entry per batch. Its blocks are single entries; the block of
  batch `q` is written back once, after the batch's last tile (point `4q + 3`), when it holds the batch
  total. Every entry is some batch's, so after the region the array holds the batch totals, entry by
  entry. The program then sums that array on the host from zero; that sum is its result.
-/
import proofs.«146066_j71562745086449_1_alg».proof.Proof.RunningTotal
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.MaskedLoss

open Cert.KernelIdeal Cert.KernelIdeal.Gen Cert.MaskedLoss

variable (m : (ℓ : Loc nD τ sig) → Buf (Elt Ideal) ℓ) (ρ : Dev nD → PrngReg)

/-- The array of batch totals: entry `(b, 0, 0)` is zero plus the cell terms of batch `b`, tile by tile. -/
def batchTotals (X Y : Arr) : (⟨3, ![64, 1, 1]⟩ : Shape).Idx → EReal :=
  fun i => 0 + ∑ j : Fin 4, ∑ r : Fin 4096, cellTerm X Y ⟨(i 0).val, (i 0).isLt⟩ (tileCell j r)

/-- WHAT A WRITE-BACK WRITES: at a point that writes the output's block back, the block is the batch
    totals' entry for the point's batch. -/
theorem flushed_eq (c : Dev nD) (t : Fin cfg0.N) (hf : (cfg0.win 2).flush t = true) :
    (dats m 0 c).flushed 2 t = ((cfg0.win 2).blk t).view.read (Elt Ideal) (batchTotals (argX m c) (argY m c)) := by
  have h3 : t.val % 4 = 3 := (flush0_2 t).mp hf
  obtain ⟨-, -, -, -, -, -, e0, -, -⟩ := index_facts t
  show (cfg0.win 2).cut (grid0.coords t) ((dats m 0 c).after 2 t) = _
  rw [after0_2]
  funext y
  rw [View.read_apply]
  obtain ⟨n, hn⟩ := t
  obtain ⟨q, rfl⟩ : ∃ q, n = 4 * q + 3 := ⟨n / 4, by dsimp only at h3; omega⟩
  have hq : q < 64 := by have := point_lt ⟨4 * q + 3, hn⟩; dsimp only at this; omega
  have hy : (y 0).val < 1 := (y 0).isLt
  refine (outs_last_eq m c ⟨q, hq⟩ hn y).trans ?_
  unfold batchTotals
  refine congrArg (fun b : Fin 64 => 0 + ∑ j : Fin 4, ∑ r : Fin 4096, cellTerm (argX m c) (argY m c) b (tileCell j r)) (Fin.ext ?_)
  show q = win0_2.index ⟨4 * q + 3, hn⟩ (0 : Fin 3) * 1 + 1 * (y 0).val
  rw [e0]
  dsimp only
  omega

/-- An entry of the array is in a point's block iff each coordinate is in the block's range on its axis. -/
theorem mem_blk (t : Fin cfg0.N) (i : S64x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- THE COVER: entry `(b, 0, 0)` is in the block written back after the last tile of batch `b`. -/
theorem covered (i : S64x1x1.Idx) :
    ∃ t : Fin cfg0.N, (cfg0.win 2).flush t = true ∧ i ∈ ((cfg0.win 2).blk t).view.set := by
  have h0 : (i 0).val < 64 := (i 0).isLt
  have h1 : (i 1).val < 1 := (i 1).isLt
  have h2 : (i 2).val < 1 := (i 2).isLt
  have hN : 4 * (i 0).val + 3 < cfg0.N := by rw [show cfg0.N = 256 from N_0]; omega
  obtain ⟨-, -, -, -, -, -, e0, e1, e2⟩ := index_facts ⟨4 * (i 0).val + 3, hN⟩
  dsimp only at e0 e1 e2
  refine ⟨⟨4 * (i 0).val + 3, hN⟩, (flush0_2 _).mpr (by show (4 * (i 0).val + 3) % 4 = 3; omega), ?_⟩
  rw [mem_blk]
  intro a
  match a with
  | ⟨0, _⟩ =>
    show win0_2.index ⟨4 * (i 0).val + 3, hN⟩ (0 : Fin 3) * 1 ≤ (i 0).val ∧ (i 0).val < win0_2.index ⟨4 * (i 0).val + 3, hN⟩ (0 : Fin 3) * 1 + 1
    rw [e0]; omega
  | ⟨1, _⟩ =>
    show win0_2.index ⟨4 * (i 0).val + 3, hN⟩ (1 : Fin 3) * 1 ≤ (i 1).val ∧ (i 1).val < win0_2.index ⟨4 * (i 0).val + 3, hN⟩ (1 : Fin 3) * 1 + 1
    rw [e1]; omega
  | ⟨2, _⟩ =>
    show win0_2.index ⟨4 * (i 0).val + 3, hN⟩ (2 : Fin 3) * 1 ≤ (i 2).val ∧ (i 2).val < win0_2.index ⟨4 * (i 0).val + 3, hN⟩ (2 : Fin 3) * 1 + 1
    rw [e2]; omega

/-- THE ARRAY after the region: the batch totals. -/
theorem final (c : Dev nD) : (dats m 0 c).arrAt 2 cfg0.N = batchTotals (argX m c) (argY m c) :=
  (dats m 0 c).arrAt_eq_of_cover 2 (batchTotals (argX m c) (argY m c)) (flushed_eq m c) covered

/-- The host's sum of a 64-entry array from zero. -/
def hostSum (A : FVec Ideal S64x1x1 .f32) : FVec Ideal S_ .f32 :=
  Host.reduceAdd (F := Ideal) A (constant (F := Ideal) S_ .f32 0x00000000#32) reducesTo_S64x1x1_S_d0_1_2 h_S_

/-- The host lines after the region leave, in the result buffer, the host's sum of the batch totals. -/
theorem tail_eq (c : Dev nD) :
    Pipeline.afterTail₀ cfgs (dats m) 0 (V0 m) [hostOps1] c main_v1 = hostSum (batchTotals (argX m c) (argY m c)) := by
  have e : Pipeline.withArrays (cfgs 0).spec c (V0 m c) (fun w => (dats m 0 c).arrAt w (cfgs 0).N) (Proc.devRef .tc main_v0)
      = batchTotals (argX m c) (argY m c) :=
    (Pipeline.withArrays_arr spec0 winFacts0.arr_inj c (V0 m c) (fun w => (dats m 0 c).arrAt w cfg0.N) 2).trans (final m c)
  unfold Pipeline.afterTail₀
  show StableHlo.after hostOps1 _ (Proc.devRef .tc main_v1) = _
  after_results
  rw [e]
  rfl

/-- The host's sum from zero of a 64-entry array, at its one index: the zero word plus the sum of the entries. -/
theorem hostSum_apply (A : FVec Ideal S64x1x1 .f32) (i : S_.Idx) :
    hostSum A i = Ideal.ofBits .f32 0x00000000#32 + ∑ j : S64x1x1.Idx, A j := by
  unfold hostSum
  simp only [Host.reduceAdd, Ideal.hostReduceAdd_def]
  exact Ideal.hostReduceAdd_total reducesTo_S64x1x1_S_d0_1_2 (fun b => b.elim0) A _ i

/-- The entries of a `[64, 1, 1]` array are its 64 batches. -/
def batchIdx : Fin 64 ≃ (⟨3, ![64, 1, 1]⟩ : Shape).Idx where
  toFun b := ix3 b (0 : Fin 1) (0 : Fin 1)
  invFun i := ⟨(i 0).val, (i 0).isLt⟩
  left_inv b := rfl
  right_inv i := funext fun a => Fin.ext (by
    match a with
    | ⟨0, _⟩ => rfl
    | ⟨1, _⟩ => show 0 = (i 1).val; have h : (i 1).val < 1 := (i 1).isLt; omega
    | ⟨2, _⟩ => show 0 = (i 2).val; have h : (i 2).val < 1 := (i 2).isLt; omega)

/-- THE KERNEL'S VALUE: the host's sum of the batch totals is the loss of the two arrays. -/
theorem hostSum_batchTotals (X Y : Arr) (i : S_.Idx) : hostSum (batchTotals X Y) i = loss X Y := by
  rw [hostSum_apply, Ideal.ofBits_zero_f32, zero_add, ← Equiv.sum_comp batchIdx (batchTotals X Y), ← sum_cellTerm_eq_loss X Y]
  exact Finset.sum_congr rfl fun b _ => zero_add _

/-- THE RUN, READ: every weakly fair execution of the idealized kernel terminates with its result at the
    loss of its two argument arrays, and the arguments unchanged. -/
theorem run : θ_run defs (onTc (τ := τ) (main (F := Ideal))) ⟨m, fun _ => 0, ρ⟩ fun r => ∀ c : Dev nD,
      r.2.mem ((c : Thread nD τ).loc main_v1) = (fun _ => loss (argX m c) (argY m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(((h c).2 main_v1 (Pipeline.mem_restRefs_of main_v1 rfl (by decide))).trans (tail_eq m c)).trans
          (funext fun i => hostSum_batchTotals (argX m c) (argY m c) i),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.MaskedLoss

end
-- ==== Proof.RefValue.lean ====
/-
  The idealized reference's result, read: it is the loss of the two argument arrays.

  The reference slices channel 0 of `y`, compares it with one half, forms the squared distance over the
  16 channels by a host sum from zero, keeps it where the cell is picked and sums over all cells from
  zero; likewise it squares channel 0 of `x`, keeps it where the cell is NOT picked, sums over all cells
  from zero, multiplies that total by the weight, and adds the two. Read at a cell `(b, n)` the kept
  values are the picked and the unpicked parts of the cell; each host sum from the zero word is the
  plain sum (zero is neutral); a sum over all cells is the sum over batches of the sums over a batch.
-/
import proofs.«146066_j71562745086449_1_alg».proof.Proof.Gen.ReferenceIdeal.Read
import proofs.«146066_j71562745086449_1_alg».proof.Proof.LossSpec
import Idealize.ShloMosaic.Lib.ValueIdx
import Idealize.ShloMosaic.PureOps.Ideal.Laws

noncomputable section

open Idealize.ShloMosaic Idealize.ShloMosaic.ValueIdx

namespace Cert.ReferenceIdeal.MaskedLoss

open Cert.ReferenceIdeal Cert.ReferenceIdeal.Gen Cert.ReferenceIdeal.Read Cert.MaskedLoss

/-- The zero word is neutral for addition. -/
theorem zero_word_add (e : EReal) : Ideal.ofBits .f32 0x00000000#32 + e = e := by
  rw [Ideal.ofBits_zero_f32, zero_add]

/-- Channel 0 of cell `(b, n)`, through the slice of `y` and its reshape to one value per cell. -/
theorem idx_y0 (b : Fin 64) (n : Fin 16384) : idx_main_v0 (idx_main_v1 (ix2 b n)) = ix3 b n (0 : Fin 16) :=
  funext fun a => Fin.ext (by
    have hb := b.isLt; have hn := n.isLt
    match a with
    | ⟨0, _⟩ => show (b.val * 16384 + n.val) / 16384 = b.val; omega
    | ⟨1, _⟩ => show (b.val * 16384 + n.val) / 1 % 16384 = n.val; omega
    | ⟨2, _⟩ => rfl)

/-- The same through the slice of `x` and its reshape. -/
theorem idx_x0 (b : Fin 64) (n : Fin 16384) : idx_main_v9 (idx_main_v10 (ix2 b n)) = ix3 b n (0 : Fin 16) :=
  funext fun a => Fin.ext (by
    have hb := b.isLt; have hn := n.isLt
    match a with
    | ⟨0, _⟩ => show (b.val * 16384 + n.val) / 16384 = b.val; omega
    | ⟨1, _⟩ => show (b.val * 16384 + n.val) / 1 % 16384 = n.val; omega
    | ⟨2, _⟩ => rfl)

/-- Channel `k` of cell `(b, n)`, as the sum over the channels indexes it. -/
theorem idx_channel (b : Fin 64) (n : Fin 16384) (k : Fin 16) : idx_main_v6 (ix2 b n) k = ix3 b n k :=
  funext fun a => Fin.ext (by match a with | ⟨0, _⟩ => rfl | ⟨1, _⟩ => rfl | ⟨2, _⟩ => rfl)

/-- The squared difference at one channel of one cell. -/
theorem sq_diff (X Y : Arr) (b : Fin 64) (n : Fin 16384) (k : Fin 16) :
    val_main_v5 (F := Ideal) X Y (idx_main_v6 (ix2 b n) k)
      = (Y (ix3 b n k) - X (ix3 b n k)) * (Y (ix3 b n k) - X (ix3 b n k)) := by
  rw [idx_channel]; rfl

/-- What the first `where` keeps at cell `(b, n)` is the cell's picked part. -/
theorem kept_picked (X Y : Arr) (b : Fin 64) (n : Fin 16384) :
    val_main_v7 (F := Ideal) X Y (ix2 b n) = pickedPart X Y b n := by
  rw [val_main_v7_apply, val_main_v3_apply, val_main_v1_apply, val_main_v0_apply, val_main_v2_apply, val_main_cst_apply,
    val_main_v6_apply, val_main_cst_0_apply, val_main_call0_v1_apply, val_main_call0_v0_apply, val_main_cst_1_apply, idx_y0,
    Finset.sum_congr rfl fun k _ => sq_diff X Y b n k]
  show Scalar.select _ (Ideal.ofBits .f32 0x00000000#32 + _) _ = _
  rw [zero_word_add]
  rfl

/-- What the second `where` keeps at cell `(b, n)` is the cell's unpicked part. -/
theorem kept_unpicked (X Y : Arr) (b : Fin 64) (n : Fin 16384) :
    val_main_v12 (F := Ideal) X Y (ix2 b n) = unpickedPart X Y b n := by
  rw [val_main_v12_apply, val_main_v3_apply, val_main_v1_apply, val_main_v0_apply, val_main_v2_apply, val_main_cst_apply,
    val_main_call1_v1_apply, val_main_call1_v0_apply, val_main_cst_3_apply, val_main_v11_apply, val_main_v10_apply,
    val_main_v9_apply, idx_y0, idx_x0]
  rfl

/-- THE REFERENCE'S VALUE: its result, at its one index, is the loss of the two arrays. -/
theorem result_eq_loss (X Y : Arr) (i : S_.Idx) : val_main_v15 (F := Ideal) X Y i = loss X Y := by
  rw [val_main_v15_apply, val_main_v8_apply, val_main_v14_apply, val_main_v13_apply, val_main_cst_2_apply,
    val_main_cst_4_apply, val_main_cst_5_apply, sum_idx2, sum_idx2,
    Finset.sum_congr rfl fun b _ => Finset.sum_congr rfl fun n _ => kept_picked X Y b n,
    Finset.sum_congr rfl fun b _ => Finset.sum_congr rfl fun n _ => kept_unpicked X Y b n]
  show (Ideal.ofBits .f32 0x00000000#32 + _) + Ideal.ofBits .f32 0x3DCCCCCD#32 * (Ideal.ofBits .f32 0x00000000#32 + _) = _
  rw [zero_word_add, zero_word_add]
  rfl

end Cert.ReferenceIdeal.MaskedLoss

end
-- ==== Proof.lean ====
/-
  A masked loss over 64 batches of 16384 cells of 16 channels, computed two ways.

  A cell is PICKED when channel 0 of `y` there exceeds one half. A picked cell contributes the squared
  distance between `y` and `x` over its channels; an unpicked cell contributes the square of channel 0
  of `x`, weighted by `w`. The reference totals the picked parts, totals the unpicked parts, multiplies
  the second total by `w` and adds. The kernel adds, per cell, picked part + unpicked part * w, sums a
  tile of 4096 cells, accumulates four tiles into a one-entry block per batch, and sums the 64 batch
  totals on the host.

  On the extended reals the two agree for ALL inputs, finite or not. Regrouping a finite sum is free in
  any commutative monoid, and the one step that is not regrouping — moving the factor `w` across the
  total of the unpicked parts — holds because every unpicked part is zero or a square, hence
  nonnegative, and a factor moves across a sum of nonnegative extended reals whatever the factor is.
  So the precondition is not used. The weight and the threshold are the same float words in both
  programs and are never evaluated; the idealization rewrote nothing, so there is nothing to preserve.

  The modules, in order: LibNonnegSums (the sums), LossSpec (the loss and its two groupings), CaseValues
  (what one run of the body leaves, per control case), TileTotal (the body's arithmetic at an index),
  RunningTotal (the accumulation over a batch's tiles, the blocks read off the arrays), KernelValue
  (the write-backs, the host sum, the kernel's run), RefValue (the reference's result).
-/
import proofs.«146066_j71562745086449_1_alg».proof.Defs
import proofs.«146066_j71562745086449_1_alg».proof.Proof.Gen.Kernel
import proofs.«146066_j71562745086449_1_alg».proof.Proof.Gen.Kernel.Skeleton
import proofs.«146066_j71562745086449_1_alg».proof.Proof.Gen.Kernel.Launch
import proofs.«146066_j71562745086449_1_alg».proof.Proof.Gen.Kernel.Points
import proofs.«146066_j71562745086449_1_alg».proof.Proof.Gen.Kernel.Frame
import proofs.«146066_j71562745086449_1_alg».proof.Proof.Gen.KernelIdeal
import proofs.«146066_j71562745086449_1_alg».proof.Proof.Gen.KernelIdeal.Skeleton
import proofs.«146066_j71562745086449_1_alg».proof.Proof.Gen.KernelIdeal.Launch
import proofs.«146066_j71562745086449_1_alg».proof.Proof.Gen.KernelIdeal.Points
import proofs.«146066_j71562745086449_1_alg».proof.Proof.Gen.KernelIdeal.Frame
import proofs.«146066_j71562745086449_1_alg».proof.Proof.Gen.ReferenceIdeal
import proofs.«146066_j71562745086449_1_alg».proof.Proof.Gen.Pre_finite_inputs
import proofs.«146066_j71562745086449_1_alg».proof.Proof.Gen.ReferenceIdeal.Run
import proofs.«146066_j71562745086449_1_alg».proof.Proof.Gen.ReferenceIdeal.Read
import proofs.«146066_j71562745086449_1_alg».proof.Proof.KernelValue
import proofs.«146066_j71562745086449_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference is a straight line of host operations: its run, with the result forgotten. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on `x` and `y`, both idealized programs end with the loss of `x` and `y`. -/
theorem algebraic : Cert.algebraic_KernelIdeal_ReferenceIdeal := by
  intro m ρ m' ρ' _ hagree
  refine ⟨fun c => fun _ => Cert.MaskedLoss.loss (Cert.KernelIdeal.MaskedLoss.argX m c) (Cert.KernelIdeal.MaskedLoss.argY m c),
    Cert.KernelIdeal.MaskedLoss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  exact funext fun i => Cert.ReferenceIdeal.MaskedLoss.result_eq_loss _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
